-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v52)) (v1 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_v51) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000 : Shape := ⟨1, ![800000]⟩
abbrev S50000x128 : Shape := ⟨2, ![50000, 128]⟩
abbrev S800000x64 : Shape := ⟨2, ![800000, 64]⟩
abbrev S128x128 : Shape := ⟨2, ![128, 128]⟩
abbrev S128 : Shape := ⟨1, ![128]⟩
abbrev S64x64 : Shape := ⟨2, ![64, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg6 : FVec F S128x128 .f32) (main_arg7 : FVec F S128 .f32) (main_arg8 : FVec F S64x64 .f32) (main_arg9 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_v33

def fn {F : FTy → Type} [FloatOps F] (main_arg0 : IVec S800000 32) (main_arg1 : IVec S800000 32) (main_arg2 : FVec F S50000x128 .f32) (main_arg3 : FVec F S800000x64 .f32) (main_arg4 : FVec F S128x128 .f32) (main_arg5 : FVec F S128 .f32) (main_arg6 : FVec F S128x128 .f32) (main_arg7 : FVec F S128 .f32) (main_arg8 : FVec F S64x64 .f32) (main_arg9 : FVec F S64 .f32) : IVec S_ 1 :=
  let main_v0 : FVec F S50000x128 .f32 := Host.absf main_arg2
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x64 .f32 := Host.absf main_arg3
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S800000 : Shape := ⟨1, ![800000]⟩
abbrev S50000x128 : Shape := ⟨2, ![50000, 128]⟩
abbrev S800000x64 : Shape := ⟨2, ![800000, 64]⟩
abbrev S128x128 : Shape := ⟨2, ![128, 128]⟩
abbrev S128 : Shape := ⟨1, ![128]⟩
abbrev S64x64 : Shape := ⟨2, ![64, 64]⟩
abbrev S64 : Shape := ⟨1, ![64]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S850000x128 : Shape := ⟨2, ![850000, 128]⟩
abbrev S1x128 : Shape := ⟨2, ![1, 128]⟩
abbrev S5000x128 : Shape := ⟨2, ![5000, 128]⟩
abbrev S50000x64 : Shape := ⟨2, ![50000, 64]⟩
abbrev S850000x64 : Shape := ⟨2, ![850000, 64]⟩
abbrev S1x64 : Shape := ⟨2, ![1, 64]⟩
abbrev S17000x64 : Shape := ⟨2, ![17000, 64]⟩

abbrev nBuf : Space → Nat
  | .hbm => 77
  | .vmem => 18
  | .smem => 0
  | _ => 0

abbrev bufTy : (tb : Table) → Fin (tcTables nBuf tb) → BufTy
  | .hbm, ⟨0, _⟩ => ⟨S800000, .i32⟩
  | .hbm, ⟨1, _⟩ => ⟨S800000, .i32⟩
  | .hbm, ⟨2, _⟩ => ⟨S50000x128, .f32⟩
  | .hbm, ⟨3, _⟩ => ⟨S800000x64, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S64x64, .f32⟩
  | .hbm, ⟨9, _⟩ => ⟨S64, .f32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x128, .f32⟩
  | .hbm, ⟨32, _⟩ => ⟨S50000x128, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000x128, .f32⟩
  | .hbm, ⟨42, _⟩ => ⟨S_, .f32⟩
  | .hbm, ⟨43, _⟩ => ⟨S50000x128, .f32⟩
  | .hbm, ⟨44, _⟩ => ⟨S850000x1, .i32⟩
  | .hbm, ⟨45, _⟩ => ⟨S50000x128, .f32⟩
  | .hbm, ⟨46, _⟩ => ⟨S50000x128, .f32⟩
  | .hbm, ⟨47, _⟩ => ⟨S50000x128, .f32⟩
  | .hbm, ⟨48, _⟩ => ⟨S1x128, .f32⟩
  | .hbm, ⟨49, _⟩ => ⟨S50000x128, .f32⟩
  | .hbm, ⟨50, _⟩ => ⟨S50000x128, .f32⟩
  | .hbm, ⟨51, _⟩ => ⟨S50000x128, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S_, .f32⟩
  | .hbm, ⟨70, _⟩ => ⟨S50000x64, .f32⟩
  | .hbm, ⟨71, _⟩ => ⟨S850000x64, .f32⟩
  | .hbm, ⟨72, _⟩ => ⟨S1x64, .f32⟩
  | .hbm, ⟨73, _⟩ => ⟨S850000x64, .f32⟩
  | .hbm, ⟨74, _⟩ => ⟨S_, .f32⟩
  | .hbm, ⟨75, _⟩ => ⟨S50000x128, .f32⟩
  | .hbm, ⟨76, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S17000x64, .f32⟩
  | .local _ .vmem, ⟨13, _⟩ => ⟨S17000x64, .f32⟩
  | .local _ .vmem, ⟨14, _⟩ => ⟨S64x64, .f32⟩
  | .local _ .vmem, ⟨15, _⟩ => ⟨S1x64, .f32⟩
  | .local _ .vmem, ⟨16, _⟩ => ⟨S17000x64, .f32⟩
  | .local _ .vmem, ⟨17, _⟩ => ⟨S17000x64, .f32⟩
  | _, _ => ⟨S800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_v35 : Ref sig .tc := ⟨.hbm, 54, rfl⟩
abbrev main_c_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_call0_cst : Ref sig .tc := ⟨.hbm, 74, rfl⟩
abbrev main_call0_v0 : Ref sig .tc := ⟨.hbm, 75, rfl⟩
abbrev main_v52 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S17000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S17000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S50000x64 : S_.BroadcastsInDim S50000x64 (![] : Fin 0 → Fin S50000x64.rank)
  concatenates_S800000x64_S50000x64_S850000x64_d0 : Shape.Concatenates [S800000x64, S50000x64] S850000x64 0
  shapeCasts_S64_S1x64 : S64.ShapeCasts S1x64
  inb_S17000x64_S17000x64_0_0 : ∀ a, (![0, 0] : Fin 2 → Nat) a + S17000x64.size a ≤ S17000x64.size a
  h_S17000x64 : 0 < S17000x64.numel
  shapeCasts_S17000x64_S17000x64 : S17000x64.ShapeCasts S17000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S17000x64 : S1x64.Broadcasts S17000x64
  scatter_S50000_S850000x1_S850000_n_0_0_1_wf : ScatterDims.WF S50000 S850000x1 S850000 [] [0] [0] 1
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x128_S5000x128_1_0_0_1_n_n_wf : DotDims.WF S5000x128 S128x128 S5000x128 [1] [0] [0] [1] [] []
  dot_S17000x64_S64x64_S17000x64_1_0_0_1_n_n_wf : DotDims.WF S17000x64 S64x64 S17000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S17000x64.size a ≤ S850000x64.size a
  hwx2_0 : ∀ i : grid2.Coords, EltTy.bits .f32 = 32 ∨ (Rect.block (s := S850000x64) S17000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S17000x64.size a ≤ S850000x64.size a
  hwx2_3 : ∀ i : grid2.Coords, EltTy.bits .f32 = 32 ∨ (Rect.block (s := S850000x64) S17000x64.size (cc2_transform_3 i) (hinb2_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S17000x64_S64x64_S17000x64_1_0_0_1_n_n : DotDims S17000x64 S64x64 S17000x64 where
  lhsContracting := [1]
  rhsContracting := [0]
  lhsNonContracting := [0]
  rhsNonContracting := [1]
  lhsBatch := []
  rhsBatch := []
  wf := dot_S17000x64_S64x64_S17000x64_1_0_0_1_n_n_wf

abbrev win0_0 : Pipeline.Window sig grid0 :=
  Pipeline.Window.ofSpec (Memref.whole main_v29) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v49) S17000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S17000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S800000 : Shape := ⟨1, ![800000]⟩
abbrev S50000x128 : Shape := ⟨2, ![50000, 128]⟩
abbrev S800000x64 : Shape := ⟨2, ![800000, 64]⟩
abbrev S128x128 : Shape := ⟨2, ![128, 128]⟩
abbrev S128 : Shape := ⟨1, ![128]⟩
abbrev S64x64 : Shape := ⟨2, ![64, 64]⟩
abbrev S64 : Shape := ⟨1, ![64]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 89
  | .vmem => 0
  | .smem => 0
  | _ => 0

abbrev bufTy : (tb : Table) → Fin (tcTables nBuf tb) → BufTy
  | .hbm, ⟨0, _⟩ => ⟨S800000, .i32⟩
  | .hbm, ⟨1, _⟩ => ⟨S800000, .i32⟩
  | .hbm, ⟨2, _⟩ => ⟨S50000x128, .f32⟩
  | .hbm, ⟨3, _⟩ => ⟨S800000x64, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S64x64, .f32⟩
  | .hbm, ⟨9, _⟩ => ⟨S64, .f32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x128, .f32⟩
  | .hbm, ⟨32, _⟩ => ⟨S50000x128, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000x128, .f32⟩
  | .hbm, ⟨42, _⟩ => ⟨S_, .f32⟩
  | .hbm, ⟨43, _⟩ => ⟨S50000x128, .f32⟩
  | .hbm, ⟨44, _⟩ => ⟨S850000x1, .i32⟩
  | .hbm, ⟨45, _⟩ => ⟨S50000x128, .f32⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S1x128, .f32⟩
  | .hbm, ⟨50, _⟩ => ⟨S50000x128, .f32⟩
  | .hbm, ⟨51, _⟩ => ⟨S50000x128, .f32⟩
  | .hbm, ⟨52, _⟩ => ⟨S_, .f32⟩
  | .hbm, ⟨53, _⟩ => ⟨S50000x128, .f32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S_, .i32⟩
  | .hbm, ⟨58, _⟩ => ⟨S850000, .i32⟩
  | .hbm, ⟨59, _⟩ => ⟨S850000, .i1⟩
  | .hbm, ⟨60, _⟩ => ⟨S_, .i32⟩
  | .hbm, ⟨61, _⟩ => ⟨S850000, .i32⟩
  | .hbm, ⟨62, _⟩ => ⟨S850000, .i32⟩
  | .hbm, ⟨63, _⟩ => ⟨S850000, .i32⟩
  | .hbm, ⟨64, _⟩ => ⟨S850000x1, .i32⟩
  | .hbm, ⟨65, _⟩ => ⟨S850000x128, .f32⟩
  | .hbm, ⟨66, _⟩ => ⟨S_, .f32⟩
  | .hbm, ⟨67, _⟩ => ⟨S50000x128, .f32⟩
  | .hbm, ⟨68, _⟩ => ⟨S850000x1, .i32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S1x128, .f32⟩
  | .hbm, ⟨74, _⟩ => ⟨S50000x128, .f32⟩
  | .hbm, ⟨75, _⟩ => ⟨S50000x128, .f32⟩
  | .hbm, ⟨76, _⟩ => ⟨S_, .f32⟩
  | .hbm, ⟨77, _⟩ => ⟨S50000x128, .f32⟩
  | .hbm, ⟨78, _⟩ => ⟨S50000x128, .f32⟩
  | .hbm, ⟨79, _⟩ => ⟨S_, .f32⟩
  | .hbm, ⟨80, _⟩ => ⟨S50000x64, .f32⟩
  | .hbm, ⟨81, _⟩ => ⟨S850000x64, .f32⟩
  | .hbm, ⟨82, _⟩ => ⟨S850000x64, .f32⟩
  | .hbm, ⟨83, _⟩ => ⟨S1x64, .f32⟩
  | .hbm, ⟨84, _⟩ => ⟨S850000x64, .f32⟩
  | .hbm, ⟨85, _⟩ => ⟨S850000x64, .f32⟩
  | .hbm, ⟨86, _⟩ => ⟨S_, .f32⟩
  | .hbm, ⟨87, _⟩ => ⟨S50000x128, .f32⟩
  | .hbm, ⟨88, _⟩ => ⟨S50000x128, .f32⟩
  | _, _ => ⟨S800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call0_cst : Ref sig .tc := ⟨.hbm, 52, rfl⟩
abbrev main_call0_v0 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_6 : Ref sig .tc := ⟨.hbm, 57, rfl⟩
abbrev main_v37 : Ref sig .tc := ⟨.hbm, 58, rfl⟩
abbrev main_v38 : Ref sig .tc := ⟨.hbm, 59, rfl⟩
abbrev main_c_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_8 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_call1_cst : Ref sig .tc := ⟨.hbm, 76, rfl⟩
abbrev main_call1_v0 : Ref sig .tc := ⟨.hbm, 77, rfl⟩
abbrev main_v53 : Ref sig .tc := ⟨.hbm, 78, rfl⟩
abbrev main_cst_9 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_call2_cst : Ref sig .tc := ⟨.hbm, 86, rfl⟩
abbrev main_call2_v0 : Ref sig .tc := ⟨.hbm, 87, rfl⟩
abbrev main_v60 : Ref sig .tc := ⟨.hbm, 88, rfl⟩

abbrev nD : Nat := 1
abbrev τ : Topo := Topo.v7x

variable {F : FTy → Type} [FloatOps F]

class Facts₀ : Prop where
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x64 : S_.BroadcastsInDim S50000x64 (![] : Fin 0 → Fin S50000x64.rank)
  concatenates_S800000x64_S50000x64_S850000x64_d0 : Shape.Concatenates [S800000x64, S50000x64] S850000x64 0
  bcast_S64_S1x64_1 : S64.BroadcastsInDim S1x64 (![1] : Fin 1 → Fin S1x64.rank)
  bcast_S1x64_S850000x64_0_1 : S1x64.BroadcastsInDim S850000x64 (![0, 1] : Fin 2 → Fin S850000x64.rank)
  scatter_S50000_S850000x1_S850000_n_0_0_1_wf : ScatterDims.WF S50000 S850000x1 S850000 [] [0] [0] 1
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []
  dot_S850000x64_S64x64_S850000x64_1_0_0_1_n_n_wf : DotDims.WF S850000x64 S64x64 S850000x64 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S850000x64_S64x64_S850000x64_1_0_0_1_n_n : DotDims S850000x64 S64x64 S850000x64 where
  lhsContracting := [1]
  rhsContracting := [0]
  lhsNonContracting := [0]
  rhsNonContracting := [1]
  lhsBatch := []
  rhsBatch := []
  wf := dot_S850000x64_S64x64_S850000x64_1_0_0_1_n_n_wf

class Facts : Prop extends Facts₀ where

variable [Facts]
-- ==== Proof.KernelRun.lean ====
/-
  The idealized kernel program's run, read at ANY buffer the host holds when @main returns.

  @main is seven segments: four stretches of host operations and, between them, three pipelined regions. The generated frame
  certificate folds the buffer contents through the segments (`W0` … `W7`: a stretch applies its operations, a region replaces its
  arrays by what its write-backs leave) and proves that every weakly fair execution terminates with every unscoped buffer at the last
  fold `W7` — but its stated post keeps only the argument arrays. Here the same launch theorem is applied with the post left open
  (`run_at`), and then read at the two result buffers as well (`run_values`).
-/
import proofs.«136901_j60988535603573_1_alg».proof.Proof.KernelIdealFrameP

set_option maxRecDepth 16384

noncomputable section

namespace Cert.KernelIdeal.RunV

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, in a memory that holds, at every unscoped buffer of every
    core, the last fold's contents `W7`: so in any post `Q` that follows from those readings. -/
theorem run_at {Q : PUnit × MemSt nD τ sig (Elt F) → Prop}
    (hQ : ∀ s : MemSt nD τ sig (Elt F),
      (∀ c : Dev nD, ∀ b ∈ Pipeline.ucRefs τ sig, s.mem (((c : Thread nD τ)).1, b) = W7 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := hQ)

/-- The run with both results named: the rectified node features `main_v52` and the edge features `main_v51` end at the last
    fold's contents, the ten arguments as launched. -/
theorem run_values : θ_run defs (onTc (τ := τ) (main (F := F))) ⟨m, fun _ => 0, ρ⟩ (fun r => ∀ c : Dev nD,
      r.2.mem ((c.tc : Thread nD τ).loc main_v52) = W7 m ρ c (Proc.devRef .tc main_v52)
      ∧ r.2.mem ((c.tc : Thread nD τ).loc main_v51) = W7 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  run_at m ρ (fun s h c =>
    ⟨h c _ (mem_uc main_v52 (by decide)),
     h c _ (mem_uc main_v51 (by decide)),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c)⟩)

end Cert.KernelIdeal.RunV

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.LibDotColsHost.lean ====
/-
  The host's plain matrix product read at one entry.

  For `x : M × K` and `y : K × N` the host's `dot_general` with dimension numbers "contract axis 1 of the left with axis 0 of
  the right, keep axis 0 of the left and axis 1 of the right" has no accumulator: over the extended reals its entry `(p, q)` is
  `∑ k, x[p, k] · y[k, q]`. The operand indices are those of the plain product (the companion module identifies them with the
  coordinate pairs `(p, k)` and `(k, q)`); only the operation differs.
-/
import proofs.«136901_j60988535603573_1_alg».proof.Proof.LibDotCols

noncomputable section

open scoped BigOperators

namespace Cert.Lib.DotColsHost

open Idealize.ShloMosaic Idealize.ShloMosaic.ValueIdx Cert.Lib.DotCols

variable {M K N : Nat}

/-- THE HOST'S PLAIN PRODUCT AT AN ENTRY. Over the extended reals, a `dot_general` with these dimension numbers (any record `D`
    that spells them: `hD`), whatever its precision and schedule, holds at `(p, q)` the sum `∑ k, x[p, k] · y[k, q]`. -/
theorem dotGeneral_cols_apply {φ₁ φ₂ : FTy} (D : DotDims ⟨2, ![M, K]⟩ ⟨2, ![K, N]⟩ ⟨2, ![M, N]⟩) (hD : D = DotDims.plain M K N)
    (prec : Option ContractPrecision) (sched : HostSchedule) (x : FVec Ideal ⟨2, ![M, K]⟩ φ₁) (y : FVec Ideal ⟨2, ![K, N]⟩ φ₂)
    (p : Fin M) (q : Fin N) :
    FloatOps.dotGeneral D prec sched x y (ix2 p q) = ∑ k : Fin K, x (ix2 p k) * y (ix2 k q) := by
  subst hD
  rw [Ideal.dotGeneral_apply, ← Equiv.sum_comp (contrEquiv1 (DotDims.plain M K N) K rfl rfl).symm]
  refine Finset.sum_congr rfl fun k _ => ?_
  rw [lhsIdx_cols, rhsIdx_cols]

end Cert.Lib.DotColsHost

end
-- ==== Proof.LibDenseLayer.lean ====
/-
  One dense layer, entry by entry.

  For `X : n × K`, `W : K × N` and a bias row `B : 1 × N` the layer's entry `(r, q)` is `∑ k, X[r, k] · W[k, q] + B[0, q]`
  (`affine`), and after the rectifier `max (…) 0` (`affineRelu`). Over the extended reals a change of float format is the
  identity, so three spellings of the layer are this one function:
    • a kernel body's block: the operands rounded to bf16, multiplied into the zero accumulator, the bias row broadcast over the
      rows and added, the maximum with a broadcast zero (`block_affine_eq`, `block_affineRelu_eq`);
    • the host's: `dot_general`, the bias vector broadcast to a row and then over the rows, added, the maximum with a broadcast
      zero (`host_affine_eq`, `host_affineRelu_eq`) — the bias row there is the bias vector cast to `1 × N`;
    • and an entry of the layer depends on ONE row of `X` only (`affine_entry`, `affineRelu_entry`), which is what lets a grid of
      row blocks compute the layer of the whole array.
-/
import proofs.«136901_j60988535603573_1_alg».proof.Proof.LibDotColsHost
import Idealize.ShloMosaic.Lib.Pipeline.Value
import Idealize.ShloMosaic.Lib.ValueLayout

noncomputable section

open scoped BigOperators

namespace Cert.Lib.DenseLayer

open Idealize.ShloMosaic Idealize.ShloMosaic.ValueIdx Cert.Lib.DotCols Cert.Lib.DotColsHost

variable {n M K N : Nat}

/-- Entry `(r, q)` of `X · W` plus the bias row's entry `q`. -/
def affine (X : FVec Ideal ⟨2, ![n, K]⟩ .f32) (W : FVec Ideal ⟨2, ![K, N]⟩ .f32) (B : FVec Ideal ⟨2, ![1, N]⟩ .f32) :
    FVec Ideal ⟨2, ![n, N]⟩ .f32 :=
  fun i => (∑ k : Fin K, X (ix2 (n0 := n) (n1 := K) (i 0) k) * W (ix2 (n0 := K) (n1 := N) k (i 1)))
    + B (ix2 (n0 := 1) (n1 := N) (0 : Fin 1) (i 1))

/-- The same, rectified: the maximum with the float zero. -/
def affineRelu (X : FVec Ideal ⟨2, ![n, K]⟩ .f32) (W : FVec Ideal ⟨2, ![K, N]⟩ .f32) (B : FVec Ideal ⟨2, ![1, N]⟩ .f32) :
    FVec Ideal ⟨2, ![n, N]⟩ .f32 :=
  fun i => max (affine X W B i) (Ideal.ofBits .f32 0x00000000#32)

theorem affine_apply (X : FVec Ideal ⟨2, ![n, K]⟩ .f32) (W : FVec Ideal ⟨2, ![K, N]⟩ .f32) (B : FVec Ideal ⟨2, ![1, N]⟩ .f32)
    (r : Fin n) (q : Fin N) :
    affine X W B (ix2 r q) = (∑ k : Fin K, X (ix2 r k) * W (ix2 k q)) + B (ix2 (0 : Fin 1) q) := rfl

theorem affineRelu_apply (X : FVec Ideal ⟨2, ![n, K]⟩ .f32) (W : FVec Ideal ⟨2, ![K, N]⟩ .f32) (B : FVec Ideal ⟨2, ![1, N]⟩ .f32)
    (r : Fin n) (q : Fin N) :
    affineRelu X W B (ix2 r q)
      = max ((∑ k : Fin K, X (ix2 r k) * W (ix2 k q)) + B (ix2 (0 : Fin 1) q)) (Ideal.ofBits .f32 0x00000000#32) := rfl

/-! ## An entry reads one row of the left operand, one column of the right and one entry of the bias -/

/-- If row `p` of `x` is row `r` of `X`, and column `q` of the weights and entry `q` of the bias row agree, the layer of `x` at
    `(p, q)` is the layer of `X` at `(r, q)`. -/
theorem affine_entry (X : FVec Ideal ⟨2, ![n, K]⟩ .f32) (x : FVec Ideal ⟨2, ![M, K]⟩ .f32) (W W' : FVec Ideal ⟨2, ![K, N]⟩ .f32)
    (B B' : FVec Ideal ⟨2, ![1, N]⟩ .f32) (p : Fin M) (r : Fin n) (q : Fin N)
    (hrow : ∀ k : Fin K, x (ix2 p k) = X (ix2 r k)) (hcol : ∀ k : Fin K, W' (ix2 k q) = W (ix2 k q))
    (hbias : B' (ix2 (0 : Fin 1) q) = B (ix2 (0 : Fin 1) q)) :
    affine x W' B' (ix2 p q) = affine X W B (ix2 r q) := by
  rw [affine_apply, affine_apply, hbias]
  exact congrArg (· + B (ix2 (0 : Fin 1) q)) (Finset.sum_congr rfl fun k _ => by rw [hrow k, hcol k])

theorem affineRelu_entry (X : FVec Ideal ⟨2, ![n, K]⟩ .f32) (x : FVec Ideal ⟨2, ![M, K]⟩ .f32) (W W' : FVec Ideal ⟨2, ![K, N]⟩ .f32)
    (B B' : FVec Ideal ⟨2, ![1, N]⟩ .f32) (p : Fin M) (r : Fin n) (q : Fin N)
    (hrow : ∀ k : Fin K, x (ix2 p k) = X (ix2 r k)) (hcol : ∀ k : Fin K, W' (ix2 k q) = W (ix2 k q))
    (hbias : B' (ix2 (0 : Fin 1) q) = B (ix2 (0 : Fin 1) q)) :
    affineRelu x W' B' (ix2 p q) = affineRelu X W B (ix2 r q) :=
  congrArg (fun v => max v (Ideal.ofBits .f32 0x00000000#32)) (affine_entry X x W W' B B' p r q hrow hcol hbias)

/-! ## A kernel body's block -/

/-- The body's sum: both operands rounded to bf16 (the identity here), multiplied into the zero accumulator, plus the bias row
    broadcast over the rows. -/
theorem block_affine_eq (D : DotDims ⟨2, ![M, K]⟩ ⟨2, ![K, N]⟩ ⟨2, ![M, N]⟩) (hD : D = DotDims.plain M K N)
    (h0 : (⟨2, ![M, K]⟩ : Shape).ShapeCasts ⟨2, ![M, K]⟩) (h2 : (⟨2, ![1, N]⟩ : Shape).ShapeCasts ⟨2, ![1, N]⟩)
    (hb : (⟨2, ![1, N]⟩ : Shape).Broadcasts ⟨2, ![M, N]⟩) (hbits : FTy.bits .bf16 < FTy.bits .f32)
    (x0 : FVec Ideal ⟨2, ![M, K]⟩ .f32) (x1 : FVec Ideal ⟨2, ![K, N]⟩ .f32) (x2 : FVec Ideal ⟨2, ![1, N]⟩ .f32) :
    addf (matmul D none (truncf .bf16 (shapeCast ⟨2, ![M, K]⟩ x0 h0) hbits) (truncf .bf16 x1 hbits)
        (constant ⟨2, ![M, N]⟩ .f32 0x00000000#32))
      (broadcastTo ⟨2, ![M, N]⟩ (shapeCast ⟨2, ![1, N]⟩ x2 h2) hb) = affine x0 x1 x2 := by
  funext i
  obtain ⟨p, q, rfl⟩ : ∃ (p : Fin M) (q : Fin N), i = ix2 p q := ⟨i 0, i 1, eq_ix2 i⟩
  rw [affine_apply, addf_apply, shapeCast_self, shapeCast_self, broadcastTo_1b_ab_apply]
  refine congrArg (· + x2 (ix2 (0 : Fin 1) q)) ?_
  exact (matmul_cols_apply D hD none (truncf .bf16 x0 hbits) (truncf .bf16 x1 hbits) p q).trans
    (Finset.sum_congr rfl fun k _ => rfl)

/-- … and its maximum with a broadcast zero. -/
theorem block_affineRelu_eq (D : DotDims ⟨2, ![M, K]⟩ ⟨2, ![K, N]⟩ ⟨2, ![M, N]⟩) (hD : D = DotDims.plain M K N)
    (h0 : (⟨2, ![M, K]⟩ : Shape).ShapeCasts ⟨2, ![M, K]⟩) (h2 : (⟨2, ![1, N]⟩ : Shape).ShapeCasts ⟨2, ![1, N]⟩)
    (hb : (⟨2, ![1, N]⟩ : Shape).Broadcasts ⟨2, ![M, N]⟩) (hbits : FTy.bits .bf16 < FTy.bits .f32)
    (x0 : FVec Ideal ⟨2, ![M, K]⟩ .f32) (x1 : FVec Ideal ⟨2, ![K, N]⟩ .f32) (x2 : FVec Ideal ⟨2, ![1, N]⟩ .f32) :
    maximumf (addf (matmul D none (truncf .bf16 (shapeCast ⟨2, ![M, K]⟩ x0 h0) hbits) (truncf .bf16 x1 hbits)
          (constant ⟨2, ![M, N]⟩ .f32 0x00000000#32))
        (broadcastTo ⟨2, ![M, N]⟩ (shapeCast ⟨2, ![1, N]⟩ x2 h2) hb))
      (broadcast ⟨2, ![M, N]⟩ (Scalar.ofBits (F := Ideal) .f32 0x00000000#32)) = affineRelu x0 x1 x2 := by
  rw [block_affine_eq D hD h0 h2 hb hbits]
  rfl

/-! ## The host's layer -/

/-- A bias vector broadcast to a row and then over the rows reads, at `(r, q)`, its entry `q`. -/
theorem bias_rows_apply (hb1 : (⟨1, ![N]⟩ : Shape).BroadcastsInDim ⟨2, ![1, N]⟩ ![1])
    (hb2 : (⟨2, ![1, N]⟩ : Shape).BroadcastsInDim ⟨2, ![n, N]⟩ ![0, 1]) (b : FVec Ideal ⟨1, ![N]⟩ .f32) (r : Fin n) (q : Fin N) :
    broadcastInDim ⟨2, ![n, N]⟩ ![0, 1] hb2 (broadcastInDim ⟨2, ![1, N]⟩ ![1] hb1 b) (ix2 r q) = b (ix1 q) := by
  rw [broadcastInDim_apply ![0, 1] hb2 _ (ix2 r q) (ix2 (0 : Fin 1) q) (fun a => by
      match a with
      | ⟨0, _⟩ => exact (if_pos rfl).symm
      | ⟨1, _⟩ =>
        show q.val = if N = 1 then 0 else q.val
        split
        · have := q.isLt; omega
        · rfl),
    broadcastInDim_apply ![1] hb1 b (ix2 (0 : Fin 1) q) (ix1 q) (fun a => by
      match a with
      | ⟨0, _⟩ =>
        show q.val = if N = 1 then 0 else q.val
        split
        · have := q.isLt; omega
        · rfl)]

/-- The bias vector cast to a row reads the same entry. -/
theorem bias_cast_apply (hsc : (⟨1, ![N]⟩ : Shape).ShapeCasts ⟨2, ![1, N]⟩) (b : FVec Ideal ⟨1, ![N]⟩ .f32) (q : Fin N) :
    shapeCast ⟨2, ![1, N]⟩ b hsc (ix2 (0 : Fin 1) q) = b (ix1 q) :=
  shapeCast_a_1a_apply b hsc 0 q

/-- The host's product plus the broadcast bias is the layer at the bias cast to a row. -/
theorem host_affine_eq (D : DotDims ⟨2, ![n, K]⟩ ⟨2, ![K, N]⟩ ⟨2, ![n, N]⟩) (hD : D = DotDims.plain n K N)
    (hb1 : (⟨1, ![N]⟩ : Shape).BroadcastsInDim ⟨2, ![1, N]⟩ ![1])
    (hb2 : (⟨2, ![1, N]⟩ : Shape).BroadcastsInDim ⟨2, ![n, N]⟩ ![0, 1])
    (hsc : (⟨1, ![N]⟩ : Shape).ShapeCasts ⟨2, ![1, N]⟩)
    (X : FVec Ideal ⟨2, ![n, K]⟩ .f32) (W : FVec Ideal ⟨2, ![K, N]⟩ .f32) (b : FVec Ideal ⟨1, ![N]⟩ .f32) :
    addf (Host.dotGeneral D none X W) (broadcastInDim ⟨2, ![n, N]⟩ ![0, 1] hb2 (broadcastInDim ⟨2, ![1, N]⟩ ![1] hb1 b))
      = affine X W (shapeCast ⟨2, ![1, N]⟩ b hsc) := by
  funext i
  obtain ⟨r, q, rfl⟩ : ∃ (r : Fin n) (q : Fin N), i = ix2 r q := ⟨i 0, i 1, eq_ix2 i⟩
  rw [affine_apply, addf_apply, bias_rows_apply hb1 hb2 b r q, bias_cast_apply hsc b q]
  exact congrArg (· + b (ix1 q)) (dotGeneral_cols_apply D hD none .single X W r q)

/-- … and its maximum with a broadcast zero the rectified layer. -/
theorem host_affineRelu_eq (D : DotDims ⟨2, ![n, K]⟩ ⟨2, ![K, N]⟩ ⟨2, ![n, N]⟩) (hD : D = DotDims.plain n K N)
    (hb1 : (⟨1, ![N]⟩ : Shape).BroadcastsInDim ⟨2, ![1, N]⟩ ![1])
    (hb2 : (⟨2, ![1, N]⟩ : Shape).BroadcastsInDim ⟨2, ![n, N]⟩ ![0, 1])
    (hb0 : (⟨0, ![]⟩ : Shape).BroadcastsInDim ⟨2, ![n, N]⟩ ![])
    (hsc : (⟨1, ![N]⟩ : Shape).ShapeCasts ⟨2, ![1, N]⟩)
    (X : FVec Ideal ⟨2, ![n, K]⟩ .f32) (W : FVec Ideal ⟨2, ![K, N]⟩ .f32) (b : FVec Ideal ⟨1, ![N]⟩ .f32) :
    maximumf (addf (Host.dotGeneral D none X W) (broadcastInDim ⟨2, ![n, N]⟩ ![0, 1] hb2 (broadcastInDim ⟨2, ![1, N]⟩ ![1] hb1 b)))
        (broadcastInDim ⟨2, ![n, N]⟩ ![] hb0 (constant (F := Ideal) ⟨0, ![]⟩ .f32 0x00000000#32))
      = affineRelu X W (shapeCast ⟨2, ![1, N]⟩ b hsc) := by
  rw [host_affine_eq D hD hb1 hb2 hsc]
  funext i
  rw [maximumf_apply, broadcastInDim_apply ![] hb0 _ i ix0 (fun a => a.elim0)]
  rfl

/-- The rectifier applied twice is the rectifier: `max (max v 0) 0 = max v 0`. -/
theorem relu_relu (Y : FVec Ideal ⟨2, ![n, N]⟩ .f32) (hb0 : (⟨0, ![]⟩ : Shape).BroadcastsInDim ⟨2, ![n, N]⟩ ![]) :
    maximumf (maximumf Y (broadcastInDim ⟨2, ![n, N]⟩ ![] hb0 (constant (F := Ideal) ⟨0, ![]⟩ .f32 0x00000000#32)))
        (broadcastInDim ⟨2, ![n, N]⟩ ![] hb0 (constant (F := Ideal) ⟨0, ![]⟩ .f32 0x00000000#32))
      = maximumf Y (broadcastInDim ⟨2, ![n, N]⟩ ![] hb0 (constant (F := Ideal) ⟨0, ![]⟩ .f32 0x00000000#32)) := by
  funext i
  rw [maximumf_apply, maximumf_apply]
  exact max_eq_left (le_max_right _ _)

end Cert.Lib.DenseLayer

end
-- ==== Proof.Region0.lean ====
/-
  Region 0 of @main (the first graph convolution's linear map and rectifier): the array it writes.

  The region's grid has 10 points; point `t` fetches rows `5000·t … 5000·t + 4999` of the left operand, the whole weight matrix and the
  whole bias row, and writes back rows `5000·t … 5000·t + 4999` of the result. The body's stored value is the rectified layer of its three
  blocks (`pay_eq`); an entry of the layer reads one row of the left operand, so block `t` of the result is block `t` of the layer of
  the WHOLE arrays (`flushed_eq`); the 10 blocks tile the 50000 rows (`cover`: row `r` lies in the block of point `r / 5000`); hence the
  array ends at the layer of the arrays the region was entered with (`arr`), whatever those are (`V` is a parameter).
-/
import proofs.«136901_j60988535603573_1_alg».proof.Proof.KernelIdealFrameP
import proofs.«136901_j60988535603573_1_alg».proof.Proof.LibDenseLayer

set_option maxRecDepth 16384

noncomputable section

namespace Cert.KernelIdeal.Region0

open Cert.KernelIdeal Cert.KernelIdeal.Gen Cert.KernelIdeal.GenP Cert.Lib.DenseLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the rectified layer of the three blocks it loads. -/
theorem pay_eq (x0 : Vec Ideal S5000x128 .f32) (x1 : Vec Ideal S128x128 .f32) (x2 : Vec Ideal S1x128 .f32) :
    k0_pay1 x0 x1 x2 = affineRelu x0 x1 x2 :=
  block_affineRelu_eq dot_S5000x128_S128x128_S5000x128_1_0_0_1_n_n rfl shapeCasts_S5000x128_S5000x128 shapeCasts_S1x128_S1x128
    broadcasts_S1x128_S5000x128 bitsLt_bf16_f32 x0 x1 x2

/-- The printed index maps over the grid: the row-blocked windows (left operand, result) sit at block `t` of the rows, the weight
    matrix and the bias row at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the left operand's block at point `t` is row `5000·t + p` of its array. -/
theorem blk0_apply (c : Dev nD) (t : Fin cfg0.N) (p : Fin 5000) (k : Fin 128) (r : Fin 50000) (hr : r.val = t.val * 5000 + p.val) :
    iblk0 V c 0 t (ix2 p k) = V c main_v29 (ix2 r k) := by
  obtain ⟨e0, e1, -⟩ := idx_facts t
  show V c main_v29 (((cfg0.win 0).blk t).view.emb (ix2 p k)) = V c main_v29 (ix2 r k)
  refine congrArg (V c main_v29) (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The weight matrix's block is the whole matrix at every point. -/
theorem blk1_apply (c : Dev nD) (t : Fin cfg0.N) (k : Fin 128) (q : Fin 128) :
    iblk0 V c 1 t (ix2 k q) = V c main_arg4 (ix2 k q) := by
  obtain ⟨-, -, e2, e3, -⟩ := idx_facts t
  show V c main_arg4 (((cfg0.win 1).blk t).view.emb (ix2 k q)) = V c main_arg4 (ix2 k q)
  refine congrArg (V c main_arg4) (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- The bias row's block is the whole row at every point. -/
theorem blk2_apply (c : Dev nD) (t : Fin cfg0.N) (q : Fin 128) :
    iblk0 V c 2 t (ix2 (0 : Fin 1) q) = V c main_v30 (ix2 (0 : Fin 1) q) := by
  obtain ⟨-, -, -, -, e4, e5, -⟩ := idx_facts t
  show V c main_v30 (((cfg0.win 2).blk t).view.emb (ix2 (0 : Fin 1) q)) = V c main_v30 (ix2 (0 : Fin 1) q)
  refine congrArg (V c main_v30) (funext fun a => Fin.ext ?_)
  match a with
  | ⟨0, _⟩ => show win0_2.index t (0 : Fin 2) * 1 + 1 * 0 = 0; omega
  | ⟨1, _⟩ => show win0_2.index t (1 : Fin 2) * 128 + 1 * q.val = q.val; omega

/-- WHAT POINT `t` WRITES BACK is block `t` of the rectified layer of the whole arrays as the region finds them. -/
theorem flushed_eq (c : Dev nD) (t : Fin cfg0.N) :
    (dat0 V c).flushed 3 t
      = ((cfg0.win 3).blk t).view.read (Elt Ideal) (affineRelu (V c main_v29) (V c main_arg4) (V c main_v30)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  rw [pay_eq]
  funext j
  obtain ⟨p, q, rfl⟩ : ∃ (p : Fin 5000) (q : Fin 128), j = ix2 p q := ⟨j 0, j 1, eq_ix2 j⟩
  have ht : t.val < 10 := lt_of_lt_of_eq t.isLt (N_0 : cfg0.N = 10)
  obtain ⟨-, -, -, -, -, -, e6, e7⟩ := idx_facts t
  have hemb : ((cfg0.win 3).blk t).view.emb (ix2 p q)
      = ix2 (n0 := 50000) (n1 := 128) ⟨t.val * 5000 + p.val, by have := p.isLt; omega⟩ q := by
    funext a; apply Fin.ext
    match a with
    | ⟨0, _⟩ => show win0_3.index t (0 : Fin 2) * 5000 + 1 * p.val = t.val * 5000 + p.val; omega
    | ⟨1, _⟩ => show win0_3.index t (1 : Fin 2) * 128 + 1 * q.val = q.val; omega
  show affineRelu (iblk0 V c 0 t) (iblk0 V c 1 t) (iblk0 V c 2 t) (ix2 p q)
    = affineRelu (V c main_v29) (V c main_arg4) (V c main_v30) (((cfg0.win 3).blk t).view.emb (ix2 p q))
  rw [hemb]
  exact affineRelu_entry _ _ _ _ _ _ p _ q (fun k => blk0_apply V c t p k _ rfl) (fun k => blk1_apply V c t k q) (blk2_apply V c t q)

/-- An index of the result array is in point `t`'s block iff each coordinate is in the block's range on its axis. -/
theorem mem_blk (t : Fin cfg0.N) (i : S50000x128.Idx) :
    i ∈ ((cfg0.win 3).blk t).view.set
      ↔ ∀ a : Fin 2, win0_3.index t a * S5000x128.size a ≤ (i a).val ∧ (i a).val < win0_3.index t a * S5000x128.size a + S5000x128.size a := by
  show i ∈ ((View.whole main_v31).slice (win0_3.rect t)).set ↔ _
  rw [View.set_slice_whole, Rect.mem_set_unit]
  exact Iff.rfl

/-- The blocks tile the rows: row `r` lies in the block of point `r / 5000`. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  obtain ⟨t, htv⟩ : ∃ t : Fin cfg0.N, t.val = (i 0).val / 5000 := ⟨⟨(i 0).val / 5000, by rw [hN]; omega⟩, rfl⟩
  obtain ⟨-, -, -, -, -, -, e6, e7⟩ := idx_facts t
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- THE ARRAY the region leaves: the rectified layer of the left operand, the weights and the bias row as the region was entered. -/
theorem arr (c : Dev nD) :
    (dat0 V c).arrAt 3 cfg0.N = affineRelu (V c main_v29) (V c main_arg4) (V c main_v30) :=
  (dat0 V c).arrAt_eq_of_cover 3 _ (fun t _ => flushed_eq V c t) cover

end Cert.KernelIdeal.Region0

end
-- ==== Proof.FoldA.lean ====
/-
  The buffer contents up to the end of the first region, as the reference's stages of the arguments.

  Before the first region @main computes, on the host, the degree normalisations and the first aggregation: the self-loop edge lists,
  both degree vectors and their inverse square roots, the scaled node features gathered along the source list and summed into the
  destination rows, scaled again — operation for operation what the reference program computes, so each buffer the later segments
  read is the reference's stage of the same name applied to the launch arrays (`w1_…`). The first region then leaves the rectified
  layer of the aggregate, the first weights and the first bias row (Region0), which is the host's `dot_general`, broadcast bias, sum and
  maximum: the reference's first rectified layer (`w2_v31`). Every other buffer passes the region unchanged (`w2_…`).
-/
import proofs.«136901_j60988535603573_1_alg».proof.Proof.KernelIdealFrameP
import proofs.«136901_j60988535603573_1_alg».proof.Proof.Gen.ReferenceIdeal.Read
import proofs.«136901_j60988535603573_1_alg».proof.Proof.Region0
import proofs.«136901_j60988535603573_1_alg».proof.Proof.LibDenseLayer

set_option maxRecDepth 16384

noncomputable section

namespace Cert.KernelIdeal.Fold

open Cert.KernelIdeal Cert.KernelIdeal.Gen Cert.KernelIdeal.GenP Cert.Lib.DenseLayer
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## After the first host stretch -/

theorem w1_v29 : W1 m ρ c (Proc.devRef .tc main_v29) = Cert.ReferenceIdeal.Read.val_main_v29 (F := Ideal) (m ((c.tc : Thread nD τ).loc main_arg0)) (m ((c.tc : Thread nD τ).loc main_arg1)) (m ((c.tc : Thread nD τ).loc main_arg2)) := by
  show StableHlo.after hostOps0 (W0 m ρ c) (Proc.devRef .tc main_v29) = _
  after_results_simp <;> rfl

theorem w1_v30 : W1 m ρ c (Proc.devRef .tc main_v30) = shapeCast S1x128 (m ((c.tc : Thread nD τ).loc main_arg5)) shapeCasts_S128_S1x128 := by
  show StableHlo.after hostOps0 (W0 m ρ c) (Proc.devRef .tc main_v30) = _
  after_results_simp <;> rfl

theorem w1_v12 : W1 m ρ c (Proc.devRef .tc main_v12) = Cert.ReferenceIdeal.Read.val_main_v12 (F := Ideal) (m ((c.tc : Thread nD τ).loc main_arg0)) := by
  show StableHlo.after hostOps0 (W0 m ρ c) (Proc.devRef .tc main_v12) = _
  after_results_simp <;> rfl

theorem w1_v15 : W1 m ρ c (Proc.devRef .tc main_v15) = Cert.ReferenceIdeal.Read.val_main_v15 (F := Ideal) (m ((c.tc : Thread nD τ).loc main_arg1)) := by
  show StableHlo.after hostOps0 (W0 m ρ c) (Proc.devRef .tc main_v15) = _
  after_results_simp <;> rfl

theorem w1_v1 : W1 m ρ c (Proc.devRef .tc main_v1) = Cert.ReferenceIdeal.Read.val_main_v1 (F := Ideal) (m ((c.tc : Thread nD τ).loc main_arg0)) := by
  show StableHlo.after hostOps0 (W0 m ρ c) (Proc.devRef .tc main_v1) = _
  after_results_simp <;> rfl

theorem w1_v2 : W1 m ρ c (Proc.devRef .tc main_v2) = Cert.ReferenceIdeal.Read.val_main_v2 (F := Ideal) (m ((c.tc : Thread nD τ).loc main_arg1)) := by
  show StableHlo.after hostOps0 (W0 m ρ c) (Proc.devRef .tc main_v2) = _
  after_results_simp <;> rfl

theorem w1_arg3 : W1 m ρ c (Proc.devRef .tc main_arg3) = m ((c.tc : Thread nD τ).loc main_arg3) := by
  show StableHlo.after hostOps0 (W0 m ρ c) (Proc.devRef .tc main_arg3) = _
  after_results_simp <;> rfl

theorem w1_arg4 : W1 m ρ c (Proc.devRef .tc main_arg4) = m ((c.tc : Thread nD τ).loc main_arg4) := by
  show StableHlo.after hostOps0 (W0 m ρ c) (Proc.devRef .tc main_arg4) = _
  after_results_simp <;> rfl

theorem w1_arg6 : W1 m ρ c (Proc.devRef .tc main_arg6) = m ((c.tc : Thread nD τ).loc main_arg6) := by
  show StableHlo.after hostOps0 (W0 m ρ c) (Proc.devRef .tc main_arg6) = _
  after_results_simp <;> rfl

theorem w1_arg7 : W1 m ρ c (Proc.devRef .tc main_arg7) = m ((c.tc : Thread nD τ).loc main_arg7) := by
  show StableHlo.after hostOps0 (W0 m ρ c) (Proc.devRef .tc main_arg7) = _
  after_results_simp <;> rfl

theorem w1_arg8 : W1 m ρ c (Proc.devRef .tc main_arg8) = m ((c.tc : Thread nD τ).loc main_arg8) := by
  show StableHlo.after hostOps0 (W0 m ρ c) (Proc.devRef .tc main_arg8) = _
  after_results_simp <;> rfl

theorem w1_arg9 : W1 m ρ c (Proc.devRef .tc main_arg9) = m ((c.tc : Thread nD τ).loc main_arg9) := by
  show StableHlo.after hostOps0 (W0 m ρ c) (Proc.devRef .tc main_arg9) = _
  after_results_simp <;> rfl

/-! ## After the first region -/

/-- The first region's result: the reference's first rectified layer. -/
theorem w2_v31 : W2 m ρ c (Proc.devRef .tc main_v31) = Cert.ReferenceIdeal.Read.val_main_v34 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) := by
  refine (W2_arr m ρ c 3).trans ((Region0.arr (V1 m ρ) c).trans ?_)
  show affineRelu (W1 m ρ c (Proc.devRef .tc main_v29)) (W1 m ρ c (Proc.devRef .tc main_arg4)) (W1 m ρ c (Proc.devRef .tc main_v30)) = _
  rw [w1_v29, w1_arg4, w1_v30]
  exact (host_affineRelu_eq Cert.ReferenceIdeal.dot_S50000x128_S128x128_S50000x128_1_0_0_1_n_n rfl
    Cert.ReferenceIdeal.Gen.bcast_S128_S1x128_1 Cert.ReferenceIdeal.Gen.bcast_S1x128_S50000x128_0_1 Cert.ReferenceIdeal.Gen.bcast_S_S50000x128
    shapeCasts_S128_S1x128 (Cert.ReferenceIdeal.Read.val_main_v29 (F := Ideal) (m ((c.tc : Thread nD τ).loc main_arg0)) (m ((c.tc : Thread nD τ).loc main_arg1)) (m ((c.tc : Thread nD τ).loc main_arg2))) (m ((c.tc : Thread nD τ).loc main_arg4)) (m ((c.tc : Thread nD τ).loc main_arg5))).symm

theorem w2_v12 : W2 m ρ c (Proc.devRef .tc main_v12) = Cert.ReferenceIdeal.Read.val_main_v12 (F := Ideal) (m ((c.tc : Thread nD τ).loc main_arg0)) :=
  (W2_of_ne m ρ c main_v12 (by decide)).trans (w1_v12 m ρ c)

theorem w2_v15 : W2 m ρ c (Proc.devRef .tc main_v15) = Cert.ReferenceIdeal.Read.val_main_v15 (F := Ideal) (m ((c.tc : Thread nD τ).loc main_arg1)) :=
  (W2_of_ne m ρ c main_v15 (by decide)).trans (w1_v15 m ρ c)

theorem w2_v1 : W2 m ρ c (Proc.devRef .tc main_v1) = Cert.ReferenceIdeal.Read.val_main_v1 (F := Ideal) (m ((c.tc : Thread nD τ).loc main_arg0)) :=
  (W2_of_ne m ρ c main_v1 (by decide)).trans (w1_v1 m ρ c)

theorem w2_v2 : W2 m ρ c (Proc.devRef .tc main_v2) = Cert.ReferenceIdeal.Read.val_main_v2 (F := Ideal) (m ((c.tc : Thread nD τ).loc main_arg1)) :=
  (W2_of_ne m ρ c main_v2 (by decide)).trans (w1_v2 m ρ c)

theorem w2_arg3 : W2 m ρ c (Proc.devRef .tc main_arg3) = (m ((c.tc : Thread nD τ).loc main_arg3)) :=
  (W2_of_ne m ρ c main_arg3 (by decide)).trans (w1_arg3 m ρ c)

theorem w2_arg6 : W2 m ρ c (Proc.devRef .tc main_arg6) = (m ((c.tc : Thread nD τ).loc main_arg6)) :=
  (W2_of_ne m ρ c main_arg6 (by decide)).trans (w1_arg6 m ρ c)

theorem w2_arg7 : W2 m ρ c (Proc.devRef .tc main_arg7) = (m ((c.tc : Thread nD τ).loc main_arg7)) :=
  (W2_of_ne m ρ c main_arg7 (by decide)).trans (w1_arg7 m ρ c)

theorem w2_arg8 : W2 m ρ c (Proc.devRef .tc main_arg8) = (m ((c.tc : Thread nD τ).loc main_arg8)) :=
  (W2_of_ne m ρ c main_arg8 (by decide)).trans (w1_arg8 m ρ c)

theorem w2_arg9 : W2 m ρ c (Proc.devRef .tc main_arg9) = (m ((c.tc : Thread nD τ).loc main_arg9)) :=
  (W2_of_ne m ρ c main_arg9 (by decide)).trans (w1_arg9 m ρ c)

end Cert.KernelIdeal.Fold

end
-- ==== Proof.Region1.lean ====
/-
  Region 1 of @main (the second graph convolution's linear map and rectifier): the array it writes.

  The region's grid has 10 points; point `t` fetches rows `5000·t … 5000·t + 4999` of the left operand, the whole weight matrix and the
  whole bias row, and writes back rows `5000·t … 5000·t + 4999` of the result. The body's stored value is the rectified layer of its three
  blocks (`pay_eq`); an entry of the layer reads one row of the left operand, so block `t` of the result is block `t` of the layer of
  the WHOLE arrays (`flushed_eq`); the 10 blocks tile the 50000 rows (`cover`: row `r` lies in the block of point `r / 5000`); hence the
  array ends at the layer of the arrays the region was entered with (`arr`), whatever those are (`V` is a parameter).
-/
import proofs.«136901_j60988535603573_1_alg».proof.Proof.KernelIdealFrameP
import proofs.«136901_j60988535603573_1_alg».proof.Proof.LibDenseLayer

set_option maxRecDepth 16384

noncomputable section

namespace Cert.KernelIdeal.Region1

open Cert.KernelIdeal Cert.KernelIdeal.Gen Cert.KernelIdeal.GenP Cert.Lib.DenseLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the rectified layer of the three blocks it loads. -/
theorem pay_eq (x0 : Vec Ideal S5000x128 .f32) (x1 : Vec Ideal S128x128 .f32) (x2 : Vec Ideal S1x128 .f32) :
    k1_pay1 x0 x1 x2 = affineRelu x0 x1 x2 :=
  block_affineRelu_eq dot_S5000x128_S128x128_S5000x128_1_0_0_1_n_n rfl shapeCasts_S5000x128_S5000x128 shapeCasts_S1x128_S1x128
    broadcasts_S1x128_S5000x128 bitsLt_bf16_f32 x0 x1 x2

/-- The printed index maps over the grid: the row-blocked windows (left operand, result) sit at block `t` of the rows, the weight
    matrix and the bias row at block 0. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of the left operand's block at point `t` is row `5000·t + p` of its array. -/
theorem blk0_apply (c : Dev nD) (t : Fin cfg1.N) (p : Fin 5000) (k : Fin 128) (r : Fin 50000) (hr : r.val = t.val * 5000 + p.val) :
    iblk1 V c 0 t (ix2 p k) = V c main_v45 (ix2 r k) := by
  obtain ⟨e0, e1, -⟩ := idx_facts t
  show V c main_v45 (((cfg1.win 0).blk t).view.emb (ix2 p k)) = V c main_v45 (ix2 r k)
  refine congrArg (V c main_v45) (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- The weight matrix's block is the whole matrix at every point. -/
theorem blk1_apply (c : Dev nD) (t : Fin cfg1.N) (k : Fin 128) (q : Fin 128) :
    iblk1 V c 1 t (ix2 k q) = V c main_arg6 (ix2 k q) := by
  obtain ⟨-, -, e2, e3, -⟩ := idx_facts t
  show V c main_arg6 (((cfg1.win 1).blk t).view.emb (ix2 k q)) = V c main_arg6 (ix2 k q)
  refine congrArg (V c main_arg6) (funext fun a => Fin.ext ?_)
  match a with
  | ⟨0, _⟩ => show win1_1.index t (0 : Fin 2) * 128 + 1 * k.val = k.val; omega
  | ⟨1, _⟩ => show win1_1.index t (1 : Fin 2) * 128 + 1 * q.val = q.val; omega

/-- The bias row's block is the whole row at every point. -/
theorem blk2_apply (c : Dev nD) (t : Fin cfg1.N) (q : Fin 128) :
    iblk1 V c 2 t (ix2 (0 : Fin 1) q) = V c main_v46 (ix2 (0 : Fin 1) q) := by
  obtain ⟨-, -, -, -, e4, e5, -⟩ := idx_facts t
  show V c main_v46 (((cfg1.win 2).blk t).view.emb (ix2 (0 : Fin 1) q)) = V c main_v46 (ix2 (0 : Fin 1) q)
  refine congrArg (V c main_v46) (funext fun a => Fin.ext ?_)
  match a with
  | ⟨0, _⟩ => show win1_2.index t (0 : Fin 2) * 1 + 1 * 0 = 0; omega
  | ⟨1, _⟩ => show win1_2.index t (1 : Fin 2) * 128 + 1 * q.val = q.val; omega

/-- WHAT POINT `t` WRITES BACK is block `t` of the rectified layer of the whole arrays as the region finds them. -/
theorem flushed_eq (c : Dev nD) (t : Fin cfg1.N) :
    (dat1 V c).flushed 3 t
      = ((cfg1.win 3).blk t).view.read (Elt Ideal) (affineRelu (V c main_v45) (V c main_arg6) (V c main_v46)) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x128) hz, View.ld_unit_zero (S := S1x128) hz]
  rw [pay_eq]
  funext j
  obtain ⟨p, q, rfl⟩ : ∃ (p : Fin 5000) (q : Fin 128), j = ix2 p q := ⟨j 0, j 1, eq_ix2 j⟩
  have ht : t.val < 10 := lt_of_lt_of_eq t.isLt (N_1 : cfg1.N = 10)
  obtain ⟨-, -, -, -, -, -, e6, e7⟩ := idx_facts t
  have hemb : ((cfg1.win 3).blk t).view.emb (ix2 p q)
      = ix2 (n0 := 50000) (n1 := 128) ⟨t.val * 5000 + p.val, by have := p.isLt; omega⟩ q := by
    funext a; apply Fin.ext
    match a with
    | ⟨0, _⟩ => show win1_3.index t (0 : Fin 2) * 5000 + 1 * p.val = t.val * 5000 + p.val; omega
    | ⟨1, _⟩ => show win1_3.index t (1 : Fin 2) * 128 + 1 * q.val = q.val; omega
  show affineRelu (iblk1 V c 0 t) (iblk1 V c 1 t) (iblk1 V c 2 t) (ix2 p q)
    = affineRelu (V c main_v45) (V c main_arg6) (V c main_v46) (((cfg1.win 3).blk t).view.emb (ix2 p q))
  rw [hemb]
  exact affineRelu_entry _ _ _ _ _ _ p _ q (fun k => blk0_apply V c t p k _ rfl) (fun k => blk1_apply V c t k q) (blk2_apply V c t q)

/-- An index of the result array is in point `t`'s block iff each coordinate is in the block's range on its axis. -/
theorem mem_blk (t : Fin cfg1.N) (i : S50000x128.Idx) :
    i ∈ ((cfg1.win 3).blk t).view.set
      ↔ ∀ a : Fin 2, win1_3.index t a * S5000x128.size a ≤ (i a).val ∧ (i a).val < win1_3.index t a * S5000x128.size a + S5000x128.size a := by
  show i ∈ ((View.whole main_v47).slice (win1_3.rect t)).set ↔ _
  rw [View.set_slice_whole, Rect.mem_set_unit]
  exact Iff.rfl

/-- The blocks tile the rows: row `r` lies in the block of point `r / 5000`. -/
theorem cover (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  obtain ⟨t, htv⟩ : ∃ t : Fin cfg1.N, t.val = (i 0).val / 5000 := ⟨⟨(i 0).val / 5000, by rw [hN]; omega⟩, rfl⟩
  obtain ⟨-, -, -, -, -, -, e6, e7⟩ := idx_facts t
  refine ⟨t, flush1_3 t, ?_⟩
  rw [mem_blk]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 128 ≤ (i 1).val ∧ (i 1).val < win1_3.index t (1 : Fin 2) * 128 + 128
    omega

/-- THE ARRAY the region leaves: the rectified layer of the left operand, the weights and the bias row as the region was entered. -/
theorem arr (c : Dev nD) :
    (dat1 V c).arrAt 3 cfg1.N = affineRelu (V c main_v45) (V c main_arg6) (V c main_v46) :=
  (dat1 V c).arrAt_eq_of_cover 3 _ (fun t _ => flushed_eq V c t) cover

end Cert.KernelIdeal.Region1

end
-- ==== Proof.FoldB.lean ====
/-
  The buffer contents from the first region's exit to the second region's exit, as the reference's stages of the arguments.

  Between the two regions @main repeats the aggregation on the first layer's output: scale by the source normalisation, gather along
  the source list, sum into the destination rows, scale by the destination normalisation — the reference's operations again, applied
  to buffers already identified with the reference's stages, so the second region's left operand is the reference's second aggregate
  (`w3_v45`). The second region leaves its rectified layer (Region1): the reference's second rectified layer (`w4_v47`).
-/
import proofs.«136901_j60988535603573_1_alg».proof.Proof.FoldA
import proofs.«136901_j60988535603573_1_alg».proof.Proof.Region1

set_option maxRecDepth 16384

noncomputable section

namespace Cert.KernelIdeal.Fold

open Cert.KernelIdeal Cert.KernelIdeal.Gen Cert.KernelIdeal.GenP Cert.Lib.DenseLayer
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## After the second host stretch -/

theorem w3_v45 : W3 m ρ c (Proc.devRef .tc main_v45) = Cert.ReferenceIdeal.Read.val_main_v48 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) := by
  show StableHlo.after hostOps1 (W2 m ρ c) (Proc.devRef .tc main_v45) = _
  after_results_simp
  rw [w2_v31, w2_v12, w2_v15, w2_v1, w2_v2]
  rfl

theorem w3_v46 : W3 m ρ c (Proc.devRef .tc main_v46) = shapeCast S1x128 (m ((c.tc : Thread nD τ).loc main_arg7)) shapeCasts_S128_S1x128 := by
  show StableHlo.after hostOps1 (W2 m ρ c) (Proc.devRef .tc main_v46) = _
  after_results_simp
  rw [w2_arg7] <;> rfl

theorem w3_arg3 : W3 m ρ c (Proc.devRef .tc main_arg3) = (m ((c.tc : Thread nD τ).loc main_arg3)) :=
  (show StableHlo.after hostOps1 (W2 m ρ c) (Proc.devRef .tc main_arg3) = W2 m ρ c (Proc.devRef .tc main_arg3) by
    after_results_simp).trans (w2_arg3 m ρ c)

theorem w3_arg6 : W3 m ρ c (Proc.devRef .tc main_arg6) = (m ((c.tc : Thread nD τ).loc main_arg6)) :=
  (show StableHlo.after hostOps1 (W2 m ρ c) (Proc.devRef .tc main_arg6) = W2 m ρ c (Proc.devRef .tc main_arg6) by
    after_results_simp).trans (w2_arg6 m ρ c)

theorem w3_arg8 : W3 m ρ c (Proc.devRef .tc main_arg8) = (m ((c.tc : Thread nD τ).loc main_arg8)) :=
  (show StableHlo.after hostOps1 (W2 m ρ c) (Proc.devRef .tc main_arg8) = W2 m ρ c (Proc.devRef .tc main_arg8) by
    after_results_simp).trans (w2_arg8 m ρ c)

theorem w3_arg9 : W3 m ρ c (Proc.devRef .tc main_arg9) = (m ((c.tc : Thread nD τ).loc main_arg9)) :=
  (show StableHlo.after hostOps1 (W2 m ρ c) (Proc.devRef .tc main_arg9) = W2 m ρ c (Proc.devRef .tc main_arg9) by
    after_results_simp).trans (w2_arg9 m ρ c)

/-! ## After the second region -/

/-- The second region's result: the reference's second rectified layer. -/
theorem w4_v47 : W4 m ρ c (Proc.devRef .tc main_v47) = Cert.ReferenceIdeal.Read.val_main_v53 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) := by
  refine (W4_arr m ρ c 3).trans ((Region1.arr (V3 m ρ) c).trans ?_)
  show affineRelu (W3 m ρ c (Proc.devRef .tc main_v45)) (W3 m ρ c (Proc.devRef .tc main_arg6)) (W3 m ρ c (Proc.devRef .tc main_v46)) = _
  rw [w3_v45, w3_arg6, w3_v46]
  exact (host_affineRelu_eq Cert.ReferenceIdeal.dot_S50000x128_S128x128_S50000x128_1_0_0_1_n_n rfl
    Cert.ReferenceIdeal.Gen.bcast_S128_S1x128_1 Cert.ReferenceIdeal.Gen.bcast_S1x128_S50000x128_0_1 Cert.ReferenceIdeal.Gen.bcast_S_S50000x128
    shapeCasts_S128_S1x128 (Cert.ReferenceIdeal.Read.val_main_v48 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))) (m ((c.tc : Thread nD τ).loc main_arg6)) (m ((c.tc : Thread nD τ).loc main_arg7))).symm

theorem w4_arg3 : W4 m ρ c (Proc.devRef .tc main_arg3) = (m ((c.tc : Thread nD τ).loc main_arg3)) :=
  (W4_of_ne m ρ c main_arg3 (by decide)).trans (w3_arg3 m ρ c)

theorem w4_arg8 : W4 m ρ c (Proc.devRef .tc main_arg8) = (m ((c.tc : Thread nD τ).loc main_arg8)) :=
  (W4_of_ne m ρ c main_arg8 (by decide)).trans (w3_arg8 m ρ c)

theorem w4_arg9 : W4 m ρ c (Proc.devRef .tc main_arg9) = (m ((c.tc : Thread nD τ).loc main_arg9)) :=
  (W4_of_ne m ρ c main_arg9 (by decide)).trans (w3_arg9 m ρ c)

end Cert.KernelIdeal.Fold

end
-- ==== Proof.Region2.lean ====
/-
  Region 2 of @main (the edge features' linear map): the array it writes.

  The region's grid has 50 points; point `t` fetches rows `17000·t … 17000·t + 16999` of the left operand, the whole weight matrix and the
  whole bias row, and writes back rows `17000·t … 17000·t + 16999` of the result. The body's stored value is the layer of its three
  blocks (`pay_eq`); an entry of the layer reads one row of the left operand, so block `t` of the result is block `t` of the layer of
  the WHOLE arrays (`flushed_eq`); the 50 blocks tile the 850000 rows (`cover`: row `r` lies in the block of point `r / 17000`); hence the
  array ends at the layer of the arrays the region was entered with (`arr`), whatever those are (`V` is a parameter).
-/
import proofs.«136901_j60988535603573_1_alg».proof.Proof.KernelIdealFrameP
import proofs.«136901_j60988535603573_1_alg».proof.Proof.LibDenseLayer

set_option maxRecDepth 16384

noncomputable section

namespace Cert.KernelIdeal.Region2

open Cert.KernelIdeal Cert.KernelIdeal.Gen Cert.KernelIdeal.GenP Cert.Lib.DenseLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the layer of the three blocks it loads. -/
theorem pay_eq (x0 : Vec Ideal S17000x64 .f32) (x1 : Vec Ideal S64x64 .f32) (x2 : Vec Ideal S1x64 .f32) :
    k2_pay1 x0 x1 x2 = affine x0 x1 x2 :=
  block_affine_eq dot_S17000x64_S64x64_S17000x64_1_0_0_1_n_n rfl shapeCasts_S17000x64_S17000x64 shapeCasts_S1x64_S1x64
    broadcasts_S1x64_S17000x64 bitsLt_bf16_f32 x0 x1 x2

/-- The printed index maps over the grid: the row-blocked windows (left operand, result) sit at block `t` of the rows, the weight
    matrix and the bias row at block 0. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row `p` of the left operand's block at point `t` is row `17000·t + p` of its array. -/
theorem blk0_apply (c : Dev nD) (t : Fin cfg2.N) (p : Fin 17000) (k : Fin 64) (r : Fin 850000) (hr : r.val = t.val * 17000 + p.val) :
    iblk2 V c 0 t (ix2 p k) = V c main_v49 (ix2 r k) := by
  obtain ⟨e0, e1, -⟩ := idx_facts t
  show V c main_v49 (((cfg2.win 0).blk t).view.emb (ix2 p k)) = V c main_v49 (ix2 r k)
  refine congrArg (V c main_v49) (funext fun a => Fin.ext ?_)
  match a with
  | ⟨0, _⟩ => show win2_0.index t (0 : Fin 2) * 17000 + 1 * p.val = r.val; omega
  | ⟨1, _⟩ => show win2_0.index t (1 : Fin 2) * 64 + 1 * k.val = k.val; omega

/-- The weight matrix's block is the whole matrix at every point. -/
theorem blk1_apply (c : Dev nD) (t : Fin cfg2.N) (k : Fin 64) (q : Fin 64) :
    iblk2 V c 1 t (ix2 k q) = V c main_arg8 (ix2 k q) := by
  obtain ⟨-, -, e2, e3, -⟩ := idx_facts t
  show V c main_arg8 (((cfg2.win 1).blk t).view.emb (ix2 k q)) = V c main_arg8 (ix2 k q)
  refine congrArg (V c main_arg8) (funext fun a => Fin.ext ?_)
  match a with
  | ⟨0, _⟩ => show win2_1.index t (0 : Fin 2) * 64 + 1 * k.val = k.val; omega
  | ⟨1, _⟩ => show win2_1.index t (1 : Fin 2) * 64 + 1 * q.val = q.val; omega

/-- The bias row's block is the whole row at every point. -/
theorem blk2_apply (c : Dev nD) (t : Fin cfg2.N) (q : Fin 64) :
    iblk2 V c 2 t (ix2 (0 : Fin 1) q) = V c main_v50 (ix2 (0 : Fin 1) q) := by
  obtain ⟨-, -, -, -, e4, e5, -⟩ := idx_facts t
  show V c main_v50 (((cfg2.win 2).blk t).view.emb (ix2 (0 : Fin 1) q)) = V c main_v50 (ix2 (0 : Fin 1) q)
  refine congrArg (V c main_v50) (funext fun a => Fin.ext ?_)
  match a with
  | ⟨0, _⟩ => show win2_2.index t (0 : Fin 2) * 1 + 1 * 0 = 0; omega
  | ⟨1, _⟩ => show win2_2.index t (1 : Fin 2) * 64 + 1 * q.val = q.val; omega

/-- WHAT POINT `t` WRITES BACK is block `t` of the layer of the whole arrays as the region finds them. -/
theorem flushed_eq (c : Dev nD) (t : Fin cfg2.N) :
    (dat2 V c).flushed 3 t
      = ((cfg2.win 3).blk t).view.read (Elt Ideal) (affine (V c main_v49) (V c main_arg8) (V c main_v50)) := by
  show (cfg2.win 3).cut (grid2.coords t) ((dat2 V c).after 3 t) = _
  rw [after2_3]
  unfold out2_3
  rw [View.canon_unit_zero hz]
  simp only [View.ld_unit_zero (S := S17000x64) hz, View.ld_unit_zero (S := S64x64) hz, View.ld_unit_zero (S := S1x64) hz]
  rw [pay_eq]
  funext j
  obtain ⟨p, q, rfl⟩ : ∃ (p : Fin 17000) (q : Fin 64), j = ix2 p q := ⟨j 0, j 1, eq_ix2 j⟩
  have ht : t.val < 50 := lt_of_lt_of_eq t.isLt (N_2 : cfg2.N = 50)
  obtain ⟨-, -, -, -, -, -, e6, e7⟩ := idx_facts t
  have hemb : ((cfg2.win 3).blk t).view.emb (ix2 p q)
      = ix2 (n0 := 850000) (n1 := 64) ⟨t.val * 17000 + p.val, by have := p.isLt; omega⟩ q := by
    funext a; apply Fin.ext
    match a with
    | ⟨0, _⟩ => show win2_3.index t (0 : Fin 2) * 17000 + 1 * p.val = t.val * 17000 + p.val; omega
    | ⟨1, _⟩ => show win2_3.index t (1 : Fin 2) * 64 + 1 * q.val = q.val; omega
  show affine (iblk2 V c 0 t) (iblk2 V c 1 t) (iblk2 V c 2 t) (ix2 p q)
    = affine (V c main_v49) (V c main_arg8) (V c main_v50) (((cfg2.win 3).blk t).view.emb (ix2 p q))
  rw [hemb]
  exact affine_entry _ _ _ _ _ _ p _ q (fun k => blk0_apply V c t p k _ rfl) (fun k => blk1_apply V c t k q) (blk2_apply V c t q)

/-- An index of the result array is in point `t`'s block iff each coordinate is in the block's range on its axis. -/
theorem mem_blk (t : Fin cfg2.N) (i : S850000x64.Idx) :
    i ∈ ((cfg2.win 3).blk t).view.set
      ↔ ∀ a : Fin 2, win2_3.index t a * S17000x64.size a ≤ (i a).val ∧ (i a).val < win2_3.index t a * S17000x64.size a + S17000x64.size a := by
  show i ∈ ((View.whole main_v51).slice (win2_3.rect t)).set ↔ _
  rw [View.set_slice_whole, Rect.mem_set_unit]
  exact Iff.rfl

/-- The blocks tile the rows: row `r` lies in the block of point `r / 17000`. -/
theorem cover (i : S850000x64.Idx) : ∃ t : Fin cfg2.N, (cfg2.win 3).flush t = true ∧ i ∈ ((cfg2.win 3).blk t).view.set := by
  have hi0 : (i 0).val < 850000 := (i 0).isLt
  have hi1 : (i 1).val < 64 := (i 1).isLt
  have hN : cfg2.N = 50 := N_2
  obtain ⟨t, htv⟩ : ∃ t : Fin cfg2.N, t.val = (i 0).val / 17000 := ⟨⟨(i 0).val / 17000, by rw [hN]; omega⟩, rfl⟩
  obtain ⟨-, -, -, -, -, -, e6, e7⟩ := idx_facts t
  refine ⟨t, flush2_3 t, ?_⟩
  rw [mem_blk]
  intro a
  match a with
  | ⟨0, _⟩ =>
    show win2_3.index t (0 : Fin 2) * 17000 ≤ (i 0).val ∧ (i 0).val < win2_3.index t (0 : Fin 2) * 17000 + 17000
    omega
  | ⟨1, _⟩ =>
    show win2_3.index t (1 : Fin 2) * 64 ≤ (i 1).val ∧ (i 1).val < win2_3.index t (1 : Fin 2) * 64 + 64
    omega

/-- THE ARRAY the region leaves: the layer of the left operand, the weights and the bias row as the region was entered. -/
theorem arr (c : Dev nD) :
    (dat2 V c).arrAt 3 cfg2.N = affine (V c main_v49) (V c main_arg8) (V c main_v50) :=
  (dat2 V c).arrAt_eq_of_cover 3 _ (fun t _ => flushed_eq V c t) cover

end Cert.KernelIdeal.Region2

end
-- ==== Proof.FoldC.lean ====
/-
  The buffer contents from the second region's exit to @main's return, as the reference's stages of the arguments.

  The third host stretch pads the edge features with one zero row per node; the third region leaves the (unrectified) layer of the
  padded features, the relation weights and the relation bias row (Region2): the reference's edge result (`w6_v51`). The last stretch
  rectifies the second layer's output once more: the reference's node result (`w7_v52`).
-/
import proofs.«136901_j60988535603573_1_alg».proof.Proof.FoldB
import proofs.«136901_j60988535603573_1_alg».proof.Proof.Region2

set_option maxRecDepth 16384

noncomputable section

namespace Cert.KernelIdeal.Fold

open Cert.KernelIdeal Cert.KernelIdeal.Gen Cert.KernelIdeal.GenP Cert.Lib.DenseLayer
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## After the third host stretch -/

theorem w5_v49 : W5 m ρ c (Proc.devRef .tc main_v49) = Cert.ReferenceIdeal.Read.val_main_v55 (F := Ideal) (m ((c.tc : Thread nD τ).loc main_arg3)) := by
  show StableHlo.after hostOps2 (W4 m ρ c) (Proc.devRef .tc main_v49) = _
  after_results
  rw [w4_arg3] <;> rfl

theorem w5_v50 : W5 m ρ c (Proc.devRef .tc main_v50) = shapeCast S1x64 (m ((c.tc : Thread nD τ).loc main_arg9)) shapeCasts_S64_S1x64 := by
  show StableHlo.after hostOps2 (W4 m ρ c) (Proc.devRef .tc main_v50) = _
  after_results_simp
  rw [w4_arg9] <;> rfl

theorem w5_arg8 : W5 m ρ c (Proc.devRef .tc main_arg8) = (m ((c.tc : Thread nD τ).loc main_arg8)) :=
  (show StableHlo.after hostOps2 (W4 m ρ c) (Proc.devRef .tc main_arg8) = W4 m ρ c (Proc.devRef .tc main_arg8) by
    after_results_simp).trans (w4_arg8 m ρ c)

theorem w5_v47 : W5 m ρ c (Proc.devRef .tc main_v47) = Cert.ReferenceIdeal.Read.val_main_v53 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) :=
  (show StableHlo.after hostOps2 (W4 m ρ c) (Proc.devRef .tc main_v47) = W4 m ρ c (Proc.devRef .tc main_v47) by
    after_results_simp).trans (w4_v47 m ρ c)

/-! ## After the third region -/

/-- The third region's result: the reference's edge features. -/
theorem w6_v51 : W6 m ρ c (Proc.devRef .tc main_v51) = Cert.ReferenceIdeal.Read.val_main_v59 (F := Ideal) (m ((c.tc : Thread nD τ).loc main_arg3)) (m ((c.tc : Thread nD τ).loc main_arg8)) (m ((c.tc : Thread nD τ).loc main_arg9)) := by
  refine (W6_arr m ρ c 3).trans ((Region2.arr (V5 m ρ) c).trans ?_)
  show affine (W5 m ρ c (Proc.devRef .tc main_v49)) (W5 m ρ c (Proc.devRef .tc main_arg8)) (W5 m ρ c (Proc.devRef .tc main_v50)) = _
  rw [w5_v49, w5_arg8, w5_v50]
  exact (host_affine_eq Cert.ReferenceIdeal.dot_S850000x64_S64x64_S850000x64_1_0_0_1_n_n rfl
    Cert.ReferenceIdeal.Gen.bcast_S64_S1x64_1 Cert.ReferenceIdeal.Gen.bcast_S1x64_S850000x64_0_1
    shapeCasts_S64_S1x64 (Cert.ReferenceIdeal.Read.val_main_v55 (F := Ideal) (m ((c.tc : Thread nD τ).loc main_arg3))) (m ((c.tc : Thread nD τ).loc main_arg8)) (m ((c.tc : Thread nD τ).loc main_arg9))).symm

theorem w6_v47 : W6 m ρ c (Proc.devRef .tc main_v47) = Cert.ReferenceIdeal.Read.val_main_v53 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) :=
  (W6_of_ne m ρ c main_v47 (by decide)).trans (w5_v47 m ρ c)

/-! ## When @main returns -/

/-- The node result: the second rectified layer, rectified once more. -/
theorem w7_v52 : W7 m ρ c (Proc.devRef .tc main_v52) = Cert.ReferenceIdeal.Read.val_main_v60 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) := by
  show StableHlo.after hostOps3 (W6 m ρ c) (Proc.devRef .tc main_v52) = _
  after_results_simp
  show maximumf (W6 m ρ c (Proc.devRef .tc main_v47))
    (broadcastInDim S50000x128 ![] bcast_S_S50000x128 (constant (F := Ideal) S_ .f32 0x00000000#32)) = _
  rw [w6_v47]
  rfl

/-- The edge result passes the last stretch unchanged. -/
theorem w7_v51 : W7 m ρ c (Proc.devRef .tc main_v51) = Cert.ReferenceIdeal.Read.val_main_v59 (F := Ideal) (m ((c.tc : Thread nD τ).loc main_arg3)) (m ((c.tc : Thread nD τ).loc main_arg8)) (m ((c.tc : Thread nD τ).loc main_arg9)) :=
  (show StableHlo.after hostOps3 (W6 m ρ c) (Proc.devRef .tc main_v51) = W6 m ρ c (Proc.devRef .tc main_v51) by
    after_results_simp).trans (w6_v51 m ρ c)

end Cert.KernelIdeal.Fold

end
-- ==== Proof.lean ====
/-
  The certificate of a two-layer graph convolution with an edge-feature map: the kernel program against its jnp reference.

  Both programs compute, on the host and by the same operations in the same order, the self-loop edge lists, the in- and
  out-degree normalisations `deg^(-1/2)`, and for each of the two layers the aggregate `A(h) = (Σ over edges into a node of h·norm_src
  at the edge's source) · norm_dst`. They differ only in how a layer's dense part is evaluated: the reference writes
  `max (A(h)·W + b) 0` as a host `dot_general`, a broadcast bias, a sum and a maximum; the kernel program runs a pipelined region over
  ten blocks of 5000 rows whose body rounds both operands to bf16, multiplies them into a zero accumulator, adds the bias row and
  takes the maximum with zero. The edge features `[text_h; 0]·relW + relb` are the same pair without the maximum, over fifty blocks of
  17000 rows. Over the extended reals rounding is the identity and both products are `∑ k, x[r, k]·w[k, q]`, an entry of a layer reads
  one row of its left operand, and the row blocks tile the rows: so each region leaves exactly the host's layer of the arrays it was
  entered with (LibDenseLayer, Region0–2), and folding @main's seven segments from the launch memory identifies every buffer a later segment
  reads with the reference's stage of the same arguments (FoldA–C). No law of the extended reals beyond reindexing a finite sum is
  used, so the precondition is never opened. The ideal pass rewrote nothing: `preserves` is `True`.

  The three frames: the two kernel programs' by the frame certificate of their seven segments, the reference's by its run.
-/
import proofs.«136901_j60988535603573_1_alg».proof.Defs
import proofs.«136901_j60988535603573_1_alg».proof.Proof.Gen.Kernel
import proofs.«136901_j60988535603573_1_alg».proof.Proof.Gen.KernelIdeal
import proofs.«136901_j60988535603573_1_alg».proof.Proof.Gen.ReferenceIdeal
import proofs.«136901_j60988535603573_1_alg».proof.Proof.Gen.Pre_finite_inputs
import proofs.«136901_j60988535603573_1_alg».proof.Proof.Gen.ReferenceIdeal.Run
import proofs.«136901_j60988535603573_1_alg».proof.Proof.Gen.ReferenceIdeal.Read
import proofs.«136901_j60988535603573_1_alg».proof.Proof.KernelFrameP
import proofs.«136901_j60988535603573_1_alg».proof.Proof.KernelIdealFrameP
import proofs.«136901_j60988535603573_1_alg».proof.Proof.KernelRun
import proofs.«136901_j60988535603573_1_alg».proof.Proof.FoldC
import Idealize.ShloMosaic.Adequacy
import Idealize.ShloMosaic.Init

noncomputable section

namespace Cert.Proof

open Idealize.ShloMosaic Idealize.SL.Sem

theorem frame_kernel : Cert.frame_Kernel := fun m ρ _ => Cert.Kernel.GenP.frame m ρ

theorem frame_kernelIdeal : Cert.frame_KernelIdeal := fun m ρ _ => Cert.KernelIdeal.GenP.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the node features at the reference's last stage and the edge features at its edge stage, of the kernel
    program's launch arrays: the kernel program's by the fold of its segments, the reference's by its run and the agreement of the
    two memories on the ten arguments. -/
theorem algebraic : Cert.algebraic_KernelIdeal_ReferenceIdeal := by
  intro m ρ m' ρ' _ hagree
  refine ⟨fun c => Cert.ReferenceIdeal.Read.val_main_v60 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.ReferenceIdeal.Read.val_main_v59 (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.Fold.w7_v52 m ρ c), (h c).2.1.trans (Cert.KernelIdeal.Fold.w7_v51 m ρ c), (h c).2.2⟩)
      (Cert.KernelIdeal.RunV.run_values (F := Ideal) m ρ)
  · refine (θ_run Cert.ReferenceIdeal.defs _ _).mono (fun _ h c => ⟨?_, ?_, (h c).2.2⟩)
      (Cert.ReferenceIdeal.Value.run (F := Ideal) m' ρ')
    · obtain ⟨h0, h1, h2, -, h4, h5, h6, h7, -, -⟩ := hagree c
      rw [(h c).1, Cert.ReferenceIdeal.Read.val_main_v60_eq, h0, h1, h2, h4, h5, h6, h7]
    · obtain ⟨-, -, -, h3, -, -, -, -, h8, h9⟩ := hagree c
      rw [(h c).2.1, Cert.ReferenceIdeal.Read.val_main_v59_eq, h3, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
